-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S1x1x2048x2048 : Shape := ⟨4, ![1, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S1x1x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_v13 main_v16
-- ==== Kernel.lean ====
abbrev S2x16x2048x64 : Shape := ⟨4, ![2, 16, 2048, 64]⟩
abbrev S1x1x2048x2048 : Shape := ⟨4, ![1, 1, 2048, 2048]⟩
abbrev S2x16x2048x2048 : Shape := ⟨4, ![2, 16, 2048, 2048]⟩
abbrev S1x1x256x64 : Shape := ⟨4, ![1, 1, 256, 64]⟩
abbrev S1x1x2048x64 : Shape := ⟨4, ![1, 1, 2048, 64]⟩
abbrev S1x1x256x2048 : Shape := ⟨4, ![1, 1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .f32⟩
  | .hbm, ⟨4, _⟩ => ⟨S2x16x2048x64, .f32⟩
  | .hbm, ⟨5, _⟩ => ⟨S2x16x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x2048, .f32⟩
  | .local _ .vmem, ⟨7, _⟩ => ⟨S1x1x256x64, .f32⟩
  | .local _ .vmem, ⟨8, _⟩ => ⟨S1x1x256x64, .f32⟩
  | .local _ .vmem, ⟨9, _⟩ => ⟨S1x1x256x2048, .f32⟩
  | .local _ .vmem, ⟨10, _⟩ => ⟨S1x1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 8], ![false, false, false]⟩

def k0_mult1 (i : grid0.Coords) : BitVec 32 :=
  let arg2 : BitVec 32 := BitVec.ofNat 32 (i 2).val
  let c256_i32 : BitVec 32 := 256#32
  let v8 : BitVec 32 := Scalar.muli arg2 c256_i32
  v8
def k0_off1 (i : grid0.Coords) : Fin 4 → Nat :=
  let c0_11 : Index := 0#32
  let c0_12 : Index := 0#32
  let arg2 : BitVec 32 := BitVec.ofNat 32 (i 2).val
  let c256_i32 : BitVec 32 := 256#32
  let v8 : BitVec 32 := Scalar.muli arg2 c256_i32
  let v9 : BitVec 32 := v8
  let v10 : Index := Scalar.indexCast v9
  let c0_13 : Index := 0#32
  ![0, 0, v10.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  h_S1x1x256x2048 : 0 < S1x1x256x2048.numel
  shapeCasts_S1x1x256x2048_S256x2048 : S1x1x256x2048.ShapeCasts S256x2048
  bitsLt_bf16_f32 : FTy.bits .bf16 < FTy.bits .f32
  reduces_S256x2048_S256 : S256x2048.Reduces [1] S256
  shapeCasts_S256_S256x1 : S256.ShapeCasts S256x1
  broadcasts_S256x1_S256x2048 : S256x1.Broadcasts S256x2048
  inb_S1x1x256x2048_S1x1x256x2048_0_0_0_0 : ∀ a, (![0, 0, 0, 0] : Fin 4 → Nat) a + S1x1x256x2048.size a ≤ S1x1x256x2048.size a
  shapeCasts_S256x2048_S1x1x256x2048 : S256x2048.ShapeCasts S1x1x256x2048
  shapeCasts_S256x64_S1x1x256x64 : S256x64.ShapeCasts S1x1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 8 ∣ (k0_mult1 i).toNat
  k0_off1_inb : ∀ i : grid0.Coords, ∀ a, (k0_off1 i) a + S1x1x256x2048.size a ≤ S1x1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S2x16x2048x64.size a
  hwx0_0 : ∀ i : grid0.Coords, EltTy.bits .f32 = 32 ∨ (Rect.block (s := S2x16x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048x2048.size a ≤ S1x1x2048x2048.size a
  hwx0_3 : ∀ i : grid0.Coords, EltTy.bits .f32 = 32 ∨ (Rect.block (s := S1x1x2048x2048) S1x1x2048x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S2x16x2048x64.size a
  hwx0_4 : ∀ i : grid0.Coords, EltTy.bits .f32 = 32 ∨ (Rect.block (s := S2x16x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S2x16x2048x2048.size a
  hwx0_5 : ∀ i : grid0.Coords, EltTy.bits .f32 = 32 ∨ (Rect.block (s := S2x16x2048x2048) S1x1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S1x1x2048x2048 : Shape := ⟨4, ![1, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .f32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S_, .f32⟩
  | .hbm, ⟨10, _⟩ => ⟨S1x1x2048x2048, .f32⟩
  | .hbm, ⟨11, _⟩ => ⟨S1x1x2048x2048, .f32⟩
  | .hbm, ⟨12, _⟩ => ⟨S2x16x2048x2048, .f32⟩
  | .hbm, ⟨13, _⟩ => ⟨S2x16x2048x2048, .f32⟩
  | .hbm, ⟨14, _⟩ => ⟨S_, .f32⟩
  | .hbm, ⟨15, _⟩ => ⟨S2x16x2048, .f32⟩
  | .hbm, ⟨16, _⟩ => ⟨S_, .f32⟩
  | .hbm, ⟨17, _⟩ => ⟨S2x16x2048, .f32⟩
  | .hbm, ⟨18, _⟩ => ⟨S2x16x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S1x1x2048x2048 : S_.BroadcastsInDim S1x1x2048x2048 (![] : Fin 0 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Scaled dot-product attention with an additive mask, as one function of the four argument arrays,
  over the extended reals.

  For a batch b, a head h and a query row r the LOGITS are, for each key position j,
      l j = (∑ d, Q[b,h,r,d] · K[b,h,j,d]) / √64 + M[0,0,r,j] · (−10⁹),
  the ATTENTION WEIGHTS are the row's softmax,
      A[b,h,r,j] = exp (l j − max l) / ∑ j', exp (l j' − max l),
  the maximum taken from −∞, and the OUTPUT is O[b,h,r,d] = ∑ j, A[b,h,r,j] · V[b,h,j,d].

  One of the two programs scales each query entry by the binary fraction 1/8 BEFORE the contraction
  instead of dividing the contracted sum by √64 = 8. The two logits are the same extended real for
  every input, infinite ones included: a product with a non-negative finite factor distributes over
  every sum of extended reals, so the factor 1/8 leaves the sum (`logitScaled_eq_logit`).
-/
import Idealize.ShloMosaic.PureOps.Ideal
import Idealize.ShloMosaic.Lib.ValueIdx

noncomputable section

open scoped BigOperators

namespace Cert.Attn

open Idealize.ShloMosaic Idealize.ShloMosaic.ValueIdx

/-- The shape of the query, key, value and output arrays. -/
abbrev SQ : Shape := ⟨4, ![2, 16, 2048, 64]⟩
/-- The shape of the mask. -/
abbrev SM : Shape := ⟨4, ![1, 1, 2048, 2048]⟩
/-- The shape of the attention weights. -/
abbrev SA : Shape := ⟨4, ![2, 16, 2048, 2048]⟩

/-- The mask's multiplier, the float −10⁹, as both programs spell it. -/
abbrev negBig : EReal := Ideal.ofBits .f32 0xCE6E6B28#32
/-- −∞, from which a row's maximum is taken. -/
abbrev negInf : EReal := Ideal.ofBits .f32 0xFF800000#32
/-- The float 0.125. -/
abbrev eighth : EReal := Ideal.ofBits .f32 0x3E000000#32
/-- The float 64. -/
abbrev sixtyFour : EReal := Ideal.ofBits .f32 0x42800000#32

/-! ## One row -/

/-- The maximum of a row of 2048 logits, from −∞. -/
def rowMax (l : Fin 2048 → EReal) : EReal := (Finset.univ : Finset (Fin 2048)).fold max negInf l

/-- The softmax of a row of 2048 logits, at position `j`. -/
def softmax (l : Fin 2048 → EReal) (j : Fin 2048) : EReal :=
  Ideal.div (Ideal.exp (l j - rowMax l)) (∑ j' : Fin 2048, Ideal.exp (l j' - rowMax l))

/-- One logit: the contraction of a query row with a key row over the 64 features, divided by √64,
    plus the mask entry times −10⁹. -/
def logit (q k : Fin 64 → EReal) (msk : EReal) : EReal :=
  Ideal.div (∑ d : Fin 64, q d * k d) (Ideal.sqrt sixtyFour) + msk * negBig

/-- The same logit with the query entries scaled by 1/8 before the contraction. -/
def logitScaled (q k : Fin 64 → EReal) (msk : EReal) : EReal :=
  (∑ d : Fin 64, (q d * eighth) * k d) + msk * negBig

/-! ## The two scalings agree -/

/-- The float 0.125 denotes the real 1/8. -/
theorem eighth_eq : eighth = ((1 / 8 : ℝ) : EReal) := by
  simp [Ideal.ofBits, Ideal.ieee, -EReal.coe_mul]; norm_num

/-- The float 64 denotes the real 64. -/
theorem sixtyFour_eq : sixtyFour = ((64 : ℝ) : EReal) := by
  simp [Ideal.ofBits, Ideal.ieee, -EReal.coe_mul]; norm_num

/-- √64 = 8. -/
theorem sqrt_sixtyFour : Ideal.sqrt sixtyFour = ((8 : ℝ) : EReal) := by
  rw [sixtyFour_eq, Ideal.sqrt_coe, if_neg (by norm_num)]
  congr 1
  rw [show (64 : ℝ) = 8 ^ 2 by norm_num, Real.sqrt_sq (by norm_num)]

/-- A non-negative finite factor leaves a sum of extended reals, whatever its terms. -/
theorem sum_mul_of_nonneg {ι : Type*} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- Scaling the query by 1/8 before the contraction is dividing the contraction by √64. -/
theorem logitScaled_eq_logit (q k : Fin 64 → EReal) (msk : EReal) : logitScaled q k msk = logit q k msk := by
  unfold logitScaled logit
  congr 1
  rw [sqrt_sixtyFour, Ideal.div_coe (by norm_num), eighth_eq]
  rw [← sum_mul_of_nonneg _ _ (by exact_mod_cast (by norm_num : (0 : ℝ) ≤ 1 / 8)) (EReal.coe_ne_top _)]
  exact Finset.sum_congr rfl fun d _ => mul_right_comm _ _ _

/-! ## The arrays -/

/-- The logits of batch `b`, head `h`, query row `r`: one per key position. -/
def logits (Q K : SQ.Idx → EReal) (M : SM.Idx → EReal) (b : Fin 2) (h : Fin 16) (r : Fin 2048) (j : Fin 2048) : EReal :=
  logit (fun d => Q (ix4 b h r d)) (fun d => K (ix4 b h j d)) (M (ix4 0 0 r j))

/-- The attention weights. -/
def attn (Q K : SQ.Idx → EReal) (M : SM.Idx → EReal) : SA.Idx → EReal :=
  fun i => softmax (logits Q K M (i 0) (i 1) (i 2)) (i 3)

/-- The output: each row of weights contracted with the values. -/
def out (Q K V : SQ.Idx → EReal) (M : SM.Idx → EReal) : SQ.Idx → EReal :=
  fun i => ∑ j : Fin 2048, attn Q K M (ix4 (i 0) (i 1) (i 2) j) * V (ix4 (i 0) (i 1) j (i 3))

end Cert.Attn

end
-- ==== Proof.RefAttn.lean ====
/-
  The reference program, read one operation at a time, is the specification's attention: its
  logits are the contraction of a query row with a key row divided by √64 plus the mask entry
  times −10⁹; the row maximum is the fold of max from −∞ over the 2048 key positions (the further
  maximum with −∞ changes nothing); the weights are the exponentials of the shifted logits divided
  by their sum (the sum taken from 0); the output contracts each row of weights with the values.
-/
import proofs.«138838_j32392643346715_2_alg».proof.Proof.Spec
import proofs.«138838_j32392643346715_2_alg».proof.Proof.Gen.ReferenceIdeal.Read
import Idealize.ShloMosaic.PureOps.Ideal.Laws
import Idealize.ShloMosaic.PureOps.Reduce
import Idealize.ShloMosaic.Lib.ValueIdx

noncomputable section

open scoped BigOperators

namespace Cert.Attn.Ref

open Idealize.ShloMosaic Idealize.ShloMosaic.ValueIdx Cert.ReferenceIdeal Cert.ReferenceIdeal.Gen Cert.ReferenceIdeal.Read

/-! ## The index maps of the reference's operations, at coordinates -/

/-- The query entry a logit's contraction reads at feature d. -/
theorem lidx_v0 (b : Fin 2) (h : Fin 16) (r j : Fin 2048) (d : Fin 64) :
    lidx_main_v0 (ix4 b h r j) d = ix4 b h r d := by
  funext a; match a with | ⟨0, _⟩ => rfl | ⟨1, _⟩ => rfl | ⟨2, _⟩ => rfl | ⟨3, _⟩ => rfl

/-- The key entry a logit's contraction reads at feature d. -/
theorem ridx_v0 (b : Fin 2) (h : Fin 16) (r j : Fin 2048) (d : Fin 64) :
    ridx_main_v0 (ix4 b h r j) d = ix4 b h j d := by
  funext a; match a with | ⟨0, _⟩ => rfl | ⟨1, _⟩ => rfl | ⟨2, _⟩ => rfl | ⟨3, _⟩ => rfl

/-- The mask entry a logit reads: the mask has one batch and one head. -/
theorem idx_v6 (b : Fin 2) (h : Fin 16) (r j : Fin 2048) :
    idx_main_v6 (ix4 b h r j) = ix4 (0 : Fin 1) (0 : Fin 1) r j := by
  funext a; match a with | ⟨0, _⟩ => rfl | ⟨1, _⟩ => rfl | ⟨2, _⟩ => rfl | ⟨3, _⟩ => rfl

/-- A row's maximum, broadcast back along the key positions, is read at the row. -/
theorem idx_v11_v12 (b : Fin 2) (h : Fin 16) (r j : Fin 2048) :
    idx_main_v11 (idx_main_v12 (ix4 b h r j)) = ix3 b h r := by
  funext a; match a with | ⟨0, _⟩ => rfl | ⟨1, _⟩ => rfl | ⟨2, _⟩ => rfl

/-- A row's sum, broadcast back along the key positions, is read at the row. -/
theorem idx_v16_v17 (b : Fin 2) (h : Fin 16) (r j : Fin 2048) :
    idx_main_v16 (idx_main_v17 (ix4 b h r j)) = ix3 b h r := by
  funext a; match a with | ⟨0, _⟩ => rfl | ⟨1, _⟩ => rfl | ⟨2, _⟩ => rfl

/-- The entry a row's sum reads at key position k. -/
theorem idx_v15 (b : Fin 2) (h : Fin 16) (r k : Fin 2048) :
    idx_main_v15 (ix3 b h r) k = ix4 b h r k := by
  funext a; match a with | ⟨0, _⟩ => rfl | ⟨1, _⟩ => rfl | ⟨2, _⟩ => rfl | ⟨3, _⟩ => rfl

/-- The weight the output's contraction reads at key position k. -/
theorem lidx_v19 (b : Fin 2) (h : Fin 16) (r : Fin 2048) (d : Fin 64) (k : Fin 2048) :
    lidx_main_v19 (ix4 b h r d) k = ix4 b h r k := by
  funext a; match a with | ⟨0, _⟩ => rfl | ⟨1, _⟩ => rfl | ⟨2, _⟩ => rfl | ⟨3, _⟩ => rfl

/-- The value entry the output's contraction reads at key position k. -/
theorem ridx_v19 (b : Fin 2) (h : Fin 16) (r : Fin 2048) (d : Fin 64) (k : Fin 2048) :
    ridx_main_v19 (ix4 b h r d) k = ix4 b h k d := by
  funext a; match a with | ⟨0, _⟩ => rfl | ⟨1, _⟩ => rfl | ⟨2, _⟩ => rfl | ⟨3, _⟩ => rfl

/-- The reduction over the key positions drops the last of the four axes. -/
theorem reduces_d3 : S2x16x2048x2048.Reduces [3] S2x16x2048 := by decide

/-- The row (b, h, r) with key position k put back on the dropped axis is (b, h, r, k). -/
theorem lift_ix3 (b : Fin 2) (h : Fin 16) (r : Fin 2048) (k : Fin (S2x16x2048x2048.size 3)) :
    reduces_d3.lift (ix3 b h r) k = ix4 b h r (⟨k.val, k.isLt⟩ : Fin 2048) := by
  funext c; apply Fin.ext
  fin_cases c <;> rfl

/-! ## The reference's operations, at coordinates -/

section
variable (Q K V : (⟨S2x16x2048x64, .f32⟩ : BufTy).Contents (Elt Ideal))
  (M : (⟨S1x1x2048x2048, .f32⟩ : BufTy).Contents (Elt Ideal))

/-- The reference's masked, scaled scores are the specification's logits. -/
theorem v7_at (b : Fin 2) (h : Fin 16) (r j : Fin 2048) :
    val_main_v7 (F := Ideal) Q K M (ix4 b h r j) = logits Q K M b h r j := by
  rw [val_main_v7_apply, val_main_v3_apply, val_main_v0_apply, val_main_v2_apply, val_main_v1_apply,
    val_main_cst_apply, val_main_v6_apply, val_main_v5_apply, val_main_v4_apply, val_main_cst_0_apply]
  simp only [lidx_v0, ridx_v0, idx_v6, Ideal.addf_def, Ideal.hostDivf_def, Ideal.hostUnary_sqrt_def,
    Ideal.mulf_def, Ideal.ofBits_def]
  rfl

/-- The maximum with −∞ is the other operand. -/
theorem max_negInf (y : EReal) : max negInf y = y := by
  show max (Ideal.ofBits .f32 0xFF800000#32) y = y
  simp [Ideal.ofBits, Ideal.ieee]

/-- The reference's reduction with a maximum body from −∞ over the key positions is the row's maximum. -/
theorem v8_at (b : Fin 2) (h : Fin 16) (r : Fin 2048) :
    val_main_v8 (F := Ideal) Q K M (ix3 b h r) = rowMax (logits Q K M b h r) := by
  unfold val_main_v8
  rw [Host.reduce_eq_fold_single FloatOps.maximumf _ _ reducesTo_S2x16x2048x2048_S2x16x2048_d3 reduces_d3 h_S_]
  have hf : (val_main_v7 (F := Ideal) Q K M ∘ reduces_d3.lift (ix3 b h r)) = logits Q K M b h r :=
    funext fun k => by
      show val_main_v7 (F := Ideal) Q K M (reduces_d3.lift (ix3 b h r) k) = _
      rw [lift_ix3, v7_at]
      rfl
  rw [hf]
  rfl

/-- The further maximum with −∞ leaves the row's maximum. -/
theorem v10_at (b : Fin 2) (h : Fin 16) (r : Fin 2048) :
    val_main_v10 (F := Ideal) Q K M (ix3 b h r) = rowMax (logits Q K M b h r) := by
  rw [val_main_v10_apply, val_main_v9_apply, val_main_cst_2_apply, v8_at]
  simp only [Ideal.maximumf_def, Ideal.ofBits_def]
  exact max_negInf _

/-- The reference's exponentials of the logits less the row's maximum. -/
theorem v14_at (b : Fin 2) (h : Fin 16) (r j : Fin 2048) :
    val_main_v14 (F := Ideal) Q K M (ix4 b h r j)
      = Ideal.exp (logits Q K M b h r j - rowMax (logits Q K M b h r)) := by
  rw [val_main_v14_apply, val_main_v13_apply, val_main_v12_apply, val_main_v11_apply, idx_v11_v12, v10_at, v7_at]
  simp only [Ideal.hostUnary_exp_def, Ideal.subf_def]

/-- The reference's sum of a row's exponentials, taken from 0. -/
theorem v15_at (b : Fin 2) (h : Fin 16) (r : Fin 2048) :
    val_main_v15 (F := Ideal) Q K M (ix3 b h r)
      = ∑ j' : Fin 2048, Ideal.exp (logits Q K M b h r j' - rowMax (logits Q K M b h r)) := by
  rw [val_main_v15_apply, val_main_cst_3_apply]
  simp only [idx_v15, v14_at, Ideal.ofBits_def, Ideal.ofBits_zero_f32, zero_add]

/-- The reference's weights are the softmax of the row's logits. -/
theorem v18_at (b : Fin 2) (h : Fin 16) (r j : Fin 2048) :
    val_main_v18 (F := Ideal) Q K M (ix4 b h r j) = softmax (logits Q K M b h r) j := by
  rw [val_main_v18_apply, val_main_v17_apply, val_main_v16_apply, idx_v16_v17, v15_at, v14_at]
  simp only [Ideal.hostDivf_def]
  rfl

end

/-- The reference's second result, the attention weights, is the specification's. -/
theorem ref_attn (Q K : (⟨Cert.ReferenceIdeal.S2x16x2048x64, .f32⟩ : BufTy).Contents (Elt Ideal)) (M : (⟨Cert.ReferenceIdeal.S1x1x2048x2048, .f32⟩ : BufTy).Contents (Elt Ideal)) :
    Cert.ReferenceIdeal.Read.val_main_v18 (F := Ideal) Q K M = Cert.Attn.attn Q K M := by
  funext i
  obtain ⟨b, h, r, j, rfl⟩ : ∃ (b : Fin 2) (h : Fin 16) (r j : Fin 2048), i = ix4 b h r j :=
    ⟨i 0, i 1, i 2, i 3, eq_ix4 i⟩
  rw [v18_at]
  rfl

/-- The reference's first result, the weights contracted with the values, is the specification's output. -/
theorem ref_out (Q K V : (⟨Cert.ReferenceIdeal.S2x16x2048x64, .f32⟩ : BufTy).Contents (Elt Ideal)) (M : (⟨Cert.ReferenceIdeal.S1x1x2048x2048, .f32⟩ : BufTy).Contents (Elt Ideal)) :
    Cert.ReferenceIdeal.Read.val_main_v19 (F := Ideal) Q K V M = Cert.Attn.out Q K V M := by
  funext i
  obtain ⟨b, h, r, d, rfl⟩ : ∃ (b : Fin 2) (h : Fin 16) (r : Fin 2048) (d : Fin 64), i = ix4 b h r d :=
    ⟨i 0, i 1, i 2, i 3, eq_ix4 i⟩
  rw [val_main_v19_apply, ref_attn]
  simp only [lidx_v19, ridx_v19]
  rfl

end Cert.Attn.Ref

end
-- ==== Proof.Pieces.lean ====
/-
  What one run of the kernel body leaves in its two output blocks, as values.

  At a grid point the body reads the query block, the key block, the value block and 256 rows of the
  mask (the rows of its query tile, through a rectangle whose row offset is 256 times the tile's number),
  and stores two blocks, each through one store that covers the block: the attention weights — the
  softmax of the tile's logits — and the output, the weights contracted with the value block. Each stored
  block is therefore the body's arithmetic applied to the blocks read.
-/
import proofs.«138838_j32392643346715_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0, 0, 0] : Fin 4 → Nat) = fun _ => 0 := funext fun a => by fin_cases a <;> rfl

/-- The 256 mask rows the body reads at grid coordinates `i`: rows `256 · i₂ … 256 · i₂ + 255` of the mask block. -/
def maskRows (i : grid0.Coords) (x3 : Vec F S1x1x2048x2048 .f32) : Vec F S1x1x256x2048 .f32 :=
  View.ld x3 (Rect.unit (s := S1x1x2048x2048) (k0_off1 i) S1x1x256x2048.size (Facts₀.k0_off1_inb i))

/-- The attention-weights block the body leaves: the softmax payload of the query block, the key block and the
    tile's mask rows. -/
theorem out5_eq (c : Dev nD) (i : grid0.Coords) (arg3 : Memref sig .tc .vmem S1x1x256x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .f32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x1x2048x64 .f32) (x2 : Vec F S1x1x2048x64 .f32) (x3 : Vec F S1x1x2048x2048 .f32) :
    out0_A_5 c i arg3 harg3 arg4 harg4 arg5 harg5 arg6 harg6 arg7 harg7 arg8 harg8 x0 x1 x2 x3 = k0_pay4 x0 x1 (maskRows i x3) := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  rw [View.canon_unit_zero hz]
  simp only [View.readAt_eq_ld, harg3.read_unread, harg4.read_unread, harg6.read_unread,
    View.ld_unit_zero (S := S1x1x256x64) hz, View.ld_unit_zero (S := S1x1x2048x64) hz]
  rfl

/-- The output block the body leaves: the weights just computed contracted with the value block. -/
theorem out4_eq (c : Dev nD) (i : grid0.Coords) (arg3 : Memref sig .tc .vmem S1x1x256x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .f32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x1x2048x64 .f32) (x2 : Vec F S1x1x2048x64 .f32) (x3 : Vec F S1x1x2048x2048 .f32) :
    out0_A_4 c i arg3 harg3 arg4 harg4 arg5 harg5 arg6 harg6 arg7 harg7 arg8 harg8 x0 x1 x2 x3 = k0_pay1 (k0_pay2 x2) (k0_pay3 x0 x1 (maskRows i x3)) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero hz]
  simp only [View.readAt_eq_ld, harg3.read_unread, harg4.read_unread, harg5.read_unread, harg6.read_unread,
    View.ld_unit_zero (S := S1x1x256x64) hz, View.ld_unit_zero (S := S1x1x2048x64) hz]
  rfl

end Cert.KernelIdeal.Pieces

end
-- ==== Proof.Payload.lean ====
/-
  The kernel body's arithmetic read at an index.

  The body works on one block of 256 query rows. Its pure values are: the block of attention weights (the row-wise
  softmax of the block's logits), that block cast back to rank 4, the value block cast to a matrix, and the product of
  the weights with the values. Each is read here at an index given by its coordinates:
    • the logits at `(r, j)` are `∑ d, (q[r,d] · 1/8) · k[j,d] + m[r,j] · (−10⁹)`: a shape cast that drops two leading unit
      axes reads the operand at `(0, 0, ·, ·)`, a format change is the identity on extended reals, and a matrix product
      into a zero accumulator over ONE contracting axis is the sum over that axis's coordinate of the operands' products;
    • a reduction over the lanes of a `[256, 2048]` block, cast to a column `[256, 1]` and broadcast back along the lanes,
      reads at `(r, j)` the reduction of row `r`: the maximum from −∞ is the row's maximum, the sum is the row's sum;
    • so the weights at `(r, j)` are `exp (l j − max l) / ∑ j', exp (l j' − max l)` for the row `l` of logits;
    • the product of the weights with the values at `(r, d)` is `∑ j, w[r,j] · v[j,d]`.
-/
import proofs.«138838_j32392643346715_2_alg».proof.Proof.Spec
import proofs.«138838_j32392643346715_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Attn.Pay

open Cert.KernelIdeal Cert.KernelIdeal.Gen Cert.Attn Idealize.ShloMosaic Idealize.ShloMosaic.ValueIdx

/-! ## Layout operations at an index given by coordinates -/

section Layout
variable {α : Type}

/-- A `[1, 1, a, b]` array cast to `[a, b]` reads, at `(i, j)`, the operand at `(0, 0, i, j)`: the two row-major
    positions are the same natural number. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions at a row -/

/-- The reduced index `r` with lane `k` put back is `(r, k)`. -/
theorem lift_ix2 (h : S256x2048.Reduces [1] S256) (r : Fin 256) (k : Fin (S256x2048.size 1)) :
    h.lift (ix1 r) k = ix2 r (⟨k.val, k.isLt⟩ : Fin 2048) := by
  funext c; apply Fin.ext
  fin_cases c <;> rfl

/-- The sum over the lanes of a `[256, 2048]` block, at row `r`, is the sum of that row's 2048 entries. -/
theorem rowSum_apply (src : FVec Ideal S256x2048 .f32) (hφ : FKind.Formats .f32)
    (hacc : (0x00000000#32 : BitVec 32) = FKind.add.neutral .f32 hφ) (r : Fin 256) :
    multiReduction .add [1] S256 src 0x00000000#32 reduces_S256x2048_S256 hφ hacc (ix1 r) = ∑ k : Fin 2048, src (ix2 r k) :=
  (Ideal.multiReduction_add_single src _ reduces_S256x2048_S256 hφ hacc (ix1 r)).trans
    (Finset.sum_congr rfl fun k _ => congrArg src (lift_ix2 _ r k))

/-- The maximum over the lanes, from −∞, at row `r`, is that row's maximum. -/
theorem rowMax_apply (src : FVec Ideal S256x2048 .f32) (hφ : FKind.Formats .f32)
    (hacc : (0xFF800000#32 : BitVec 32) = FKind.maximumf.neutral .f32 hφ) (r : Fin 256) :
    multiReduction .maximumf [1] S256 src 0xFF800000#32 reduces_S256x2048_S256 hφ hacc (ix1 r)
      = rowMax (fun k => src (ix2 r k)) := by
  refine (Ideal.multiReduction_maximumf_single src _ reduces_S256x2048_S256 hφ hacc (ix1 r)).trans ?_
  have hf : (src ∘ reduces_S256x2048_S256.lift (ix1 r)) = fun k : Fin 2048 => src (ix2 r k) :=
    funext fun k => congrArg src (lift_ix2 _ r k)
  exact congrArg (fun f => Finset.fold max negInf f (Finset.univ : Finset (Fin 2048))) hf

/-! ## The two matrix products at an index -/

/-- The query–key product's left operand index at result `(r, j)` and contraction position `q` has row `r`. -/
theorem qk_lhs_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
/-- … and its right operand index has row `j`, the result's column. -/
theorem qk_rhs_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl

/-- The product of a `[256, 64]` block with the transpose of a `[2048, 64]` block, into zero, at `(r, j)`: the
    contraction of row `r` of the one with row `j` of the other over the 64 features. -/
theorem matmul_qk_apply (lhs : FVec Ideal S256x64 .bf16) (rhs : FVec Ideal S2048x64 .bf16) (r : Fin 256) (j : Fin 2048) :
    matmul dot_S256x64_S2048x64_S256x2048_1_1_0_0_n_n none lhs rhs (constant (F := Ideal) S256x2048 .f32 0x00000000#32) (ix2 r j)
      = ∑ d : Fin 64, lhs (ix2 r d) * rhs (ix2 j d) := by
  simp only [matmul]
  rw [Ideal.matmul_constant_zero_apply,
    ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r j)
      ((contrEquiv1 dot_S256x64_S2048x64_S256x2048_1_1_0_0_n_n 64 rfl rfl).symm k) = ix2 r k := funext fun a => Fin.ext (by
    match a with
    | ⟨0, _⟩ => exact qk_lhs_0 _ _
    | ⟨1, _⟩ => exact (dot_S256x64_S2048x64_S256x2048_1_1_0_0_n_n.lhsIdx_val_of_single rfl _ _).trans hk)
  have er : dot_S256x64_S2048x64_S256x2048_1_1_0_0_n_n.rhsIdx (ix2 r j)
      ((contrEquiv1 dot_S256x64_S2048x64_S256x2048_1_1_0_0_n_n 64 rfl rfl).symm k) = ix2 j k := funext fun a => Fin.ext (by
    match a with
    | ⟨0, _⟩ => exact qk_rhs_0 _ _
    | ⟨1, _⟩ => exact (dot_S256x64_S2048x64_S256x2048_1_1_0_0_n_n.rhsIdx_val_of_single rfl _ _).trans hk)
  rw [el, er]

/-- The weights–values product's left operand index at result `(r, d)` has row `r`. -/
theorem av_lhs_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
/-- … and its right operand index has column `d`. -/
theorem av_rhs_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- The product of a `[256, 2048]` block with a `[2048, 64]` block, into zero, at `(r, d)`: the contraction of row
    `r` of the one with column `d` of the other over the 2048 positions. -/
theorem matmul_av_apply (lhs : FVec Ideal S256x2048 .bf16) (rhs : FVec Ideal S2048x64 .bf16) (r : Fin 256) (d : Fin 64) :
    matmul dot_S256x2048_S2048x64_S256x64_1_0_0_1_n_n none lhs rhs (constant (F := Ideal) S256x64 .f32 0x00000000#32) (ix2 r d)
      = ∑ j : Fin 2048, lhs (ix2 r j) * rhs (ix2 j d) := by
  simp only [matmul]
  rw [Ideal.matmul_constant_zero_apply,
    ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d)
      ((contrEquiv1 dot_S256x2048_S2048x64_S256x64_1_0_0_1_n_n 2048 rfl rfl).symm k) = ix2 r k := funext fun a => Fin.ext (by
    match a with
    | ⟨0, _⟩ => exact av_lhs_0 _ _
    | ⟨1, _⟩ => exact (dot_S256x2048_S2048x64_S256x64_1_0_0_1_n_n.lhsIdx_val_of_single rfl _ _).trans hk)
  have er : dot_S256x2048_S2048x64_S256x64_1_0_0_1_n_n.rhsIdx (ix2 r d)
      ((contrEquiv1 dot_S256x2048_S2048x64_S256x64_1_0_0_1_n_n 2048 rfl rfl).symm k) = ix2 k d := funext fun a => Fin.ext (by
    match a with
    | ⟨0, _⟩ => exact (dot_S256x2048_S2048x64_S256x64_1_0_0_1_n_n.rhsIdx_val_of_single rfl _ _).trans hk
    | ⟨1, _⟩ => exact av_rhs_1 _ _)
  rw [el, er]

/-! ## The softmax of a block of logits -/

/-- A vector of 256 entries cast to a column and broadcast along the lanes reads, at `(r, j)`, entry `r`. -/
theorem column_apply (v : FVec Ideal S256 .f32) (r : Fin 256) (j : Fin 2048) :
    broadcastTo S256x2048 (shapeCast S256x1 v shapeCasts_S256_S256x1) broadcasts_S256x1_S256x2048 (ix2 r j) = v (ix1 r) :=
  (broadcastTo_a1_ab_apply _ _ r j).trans (shapeCast_a_a1_apply v _ r 0)

/-- Each row's maximum, from −∞, spread along the row. -/
def maxCol (l : FVec Ideal S256x2048 .f32) : FVec Ideal S256x2048 .f32 :=
  broadcastTo S256x2048
    (shapeCast S256x1 (multiReduction .maximumf [1] S256 l 0xFF800000#32 reduces_S256x2048_S256 (.inl rfl) rfl) shapeCasts_S256_S256x1)
    broadcasts_S256x1_S256x2048

theorem maxCol_apply (l : FVec Ideal S256x2048 .f32) (r : Fin 256) (j : Fin 2048) :
    maxCol l (ix2 r j) = rowMax (fun k => l (ix2 r k)) :=
  (column_apply _ r j).trans (rowMax_apply l _ _ r)

/-- The exponentials of the logits less their row's maximum. -/
def expBlock (l : FVec Ideal S256x2048 .f32) : FVec Ideal S256x2048 .f32 := exp (subf l (maxCol l))

theorem expBlock_apply (l : FVec Ideal S256x2048 .f32) (r : Fin 256) (j : Fin 2048) :
    expBlock l (ix2 r j) = Ideal.exp (l (ix2 r j) - rowMax (fun k => l (ix2 r k))) :=
  congrArg (fun m => Ideal.exp (l (ix2 r j) - m)) (maxCol_apply l r j)

/-- Each row's sum spread along the row. -/
def sumCol (e : FVec Ideal S256x2048 .f32) : FVec Ideal S256x2048 .f32 :=
  broadcastTo S256x2048
    (shapeCast S256x1 (multiReduction .add [1] S256 e 0x00000000#32 reduces_S256x2048_S256 (.inl rfl) rfl) shapeCasts_S256_S256x1)
    broadcasts_S256x1_S256x2048

theorem sumCol_apply (e : FVec Ideal S256x2048 .f32) (r : Fin 256) (j : Fin 2048) :
    sumCol e (ix2 r j) = ∑ k : Fin 2048, e (ix2 r k) :=
  (column_apply _ r j).trans (rowSum_apply e _ _ r)

/-- The row-wise softmax of a block of logits, as the body computes it. -/
def softmaxBlock (l : FVec Ideal S256x2048 .f32) : FVec Ideal S256x2048 .f32 := divf (expBlock l) (sumCol (expBlock l))

theorem softmaxBlock_apply (l : FVec Ideal S256x2048 .f32) (r : Fin 256) (j : Fin 2048) :
    softmaxBlock l (ix2 r j) = softmax (fun j' => l (ix2 r j')) j := by
  unfold softmax
  refine (divf_apply _ _ _).trans ?_
  rw [sumCol_apply, expBlock_apply]
  exact congrArg _ (Finset.sum_congr rfl fun k _ => expBlock_apply l r k)

/-! ## The logits of a block -/

/-- The body's logits: the query block scaled by 1/8 and contracted with the key block, plus the mask rows times −10⁹. -/
def logitsBlock (x0 : Vec Ideal S1x1x256x64 .f32) (x1 : Vec Ideal S1x1x2048x64 .f32) (x11 : Vec Ideal S1x1x256x2048 .f32) :
    FVec Ideal S256x2048 .f32 :=
  addf
    (matmul dot_S256x64_S2048x64_S256x2048_1_1_0_0_n_n none
      (truncf .bf16 (mulf (shapeCast S256x64 x0 shapeCasts_S1x1x256x64_S256x64)
        (broadcast S256x64 (Scalar.ofBits .f32 0x3E000000#32 : Ideal .f32))) bitsLt_bf16_f32)
      (truncf .bf16 (shapeCast S2048x64 x1 shapeCasts_S1x1x2048x64_S2048x64) bitsLt_bf16_f32)
      (constant S256x2048 .f32 0x00000000#32))
    (mulf (shapeCast S256x2048 x11 shapeCasts_S1x1x256x2048_S256x2048)
      (broadcast S256x2048 (Scalar.ofBits .f32 0xCE6E6B28#32 : Ideal .f32)))

theorem logitsBlock_apply (x0 : Vec Ideal S1x1x256x64 .f32) (x1 : Vec Ideal S1x1x2048x64 .f32) (x11 : Vec Ideal S1x1x256x2048 .f32)
    (r : Fin 256) (j : Fin 2048) :
    logitsBlock x0 x1 x11 (ix2 r j)
      = logitScaled (fun d => x0 (ix4 0 0 r d)) (fun d => x1 (ix4 0 0 j d)) (x11 (ix4 0 0 r j)) := by
  unfold logitsBlock logitScaled
  refine (addf_apply _ _ _).trans ?_
  refine congrArg₂ (· + ·) ?_ ?_
  · refine (matmul_qk_apply _ _ r j).trans (Finset.sum_congr rfl fun d _ => ?_)
    refine congrArg₂ (· * ·) ?_ ?_
    · exact congrArg (· * eighth) (shapeCast_11ab_ab_apply x0 _ r d)
    · exact shapeCast_11ab_ab_apply x1 _ j d
  · exact congrArg (· * negBig) (shapeCast_11ab_ab_apply x11 _ r j)

/-! ## The four payloads -/

/-- The weights payload is the softmax of the logits block. -/
theorem pay3_eq (x0 : Vec Ideal S1x1x256x64 .f32) (x1 : Vec Ideal S1x1x2048x64 .f32) (x11 : Vec Ideal S1x1x256x2048 .f32) :
    k0_pay3 (F := Ideal) x0 x1 x11 = softmaxBlock (logitsBlock x0 x1 x11) := rfl

theorem pay3_apply (x0 : Vec Ideal S1x1x256x64 .f32) (x1 : Vec Ideal S1x1x2048x64 .f32) (x11 : Vec Ideal S1x1x256x2048 .f32)
    (r : Fin 256) (j : Fin 2048) :
    k0_pay3 (F := Ideal) x0 x1 x11 (ix2 r j)
      = softmax (fun j' => logitScaled (fun d => x0 (ix4 0 0 r d)) (fun d => x1 (ix4 0 0 j' d)) (x11 (ix4 0 0 r j'))) j := by
  rw [pay3_eq, softmaxBlock_apply]
  exact congrArg (fun l => softmax l j) (funext fun j' => logitsBlock_apply x0 x1 x11 r j')

theorem pay4_apply (x0 : Vec Ideal S1x1x256x64 .f32) (x1 : Vec Ideal S1x1x2048x64 .f32) (x11 : Vec Ideal S1x1x256x2048 .f32)
    (r : Fin 256) (j : Fin 2048) :
    k0_pay4 (F := Ideal) x0 x1 x11 (ix4 0 0 r j) = k0_pay3 (F := Ideal) x0 x1 x11 (ix2 r j) := by
  unfold k0_pay4
  exact shapeCast_ab_11ab_apply _ _ 0 0 r j

theorem pay2_apply (x2 : Vec Ideal S1x1x2048x64 .f32) (j : Fin 2048) (d : Fin 64) :
    k0_pay2 (F := Ideal) x2 (ix2 j d) = x2 (ix4 0 0 j d) := by
  unfold k0_pay2
  exact shapeCast_11ab_ab_apply x2 _ j d

theorem pay1_apply (v7 : FVec Ideal S2048x64 .f32) (v27 : FVec Ideal S256x2048 .f32) (r : Fin 256) (d : Fin 64) :
    k0_pay1 (F := Ideal) v7 v27 (ix4 0 0 r d) = ∑ j : Fin 2048, v27 (ix2 r j) * v7 (ix2 j d) := by
  unfold k0_pay1
  refine (shapeCast_ab_11ab_apply _ _ 0 0 r d).trans ?_
  exact matmul_av_apply _ _ r d

end Cert.Attn.Pay

end
-- ==== Proof.Blocks.lean ====
/-
  The grid of the attention kernel, its windows' blocks and the cover of its two result arrays.

  The kernel runs once per grid point (batch b, head h, query tile qi) of the grid (2, 16, 8). At a point it sees rows
  256·qi … 256·qi + 255 of the query array at (b, h), the whole key and value arrays at (b, h), the whole mask, and
  writes rows 256·qi … 256·qi + 255 of the output and of the attention weights at (b, h). This module states those
  facts index by index: each input block read off its array, each output block as a restriction of a whole-array
  function, and that the output blocks of the 256 points cover both result arrays.
-/
import proofs.«138838_j32392643346715_2_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-! ## The index maps over the grid

The grid is (2, 16, 8): a point is a batch, a head and a tile of 256 query rows. Every window's block index is
read off the attention-weights window's, whose three moving coordinates are exactly the point's. -/

/-- The output block index at grid point `t` is the point's position split in the mixed radix (2, 16, 8). -/
theorem idx5 : ∀ t : Fin cfg0.N,
    win0_5.index t 0 = t.val / 128 ∧ win0_5.index t 1 = t.val / 8 % 16 ∧ win0_5.index t 2 = t.val % 8 ∧ win0_5.index t 3 = 0
    ∧ win0_5.index t 0 < 2 ∧ win0_5.index t 1 < 16 ∧ win0_5.index t 2 < 8 :=
  (by decide +kernel : ∀ t : Fin grid0.N, _)

/-- Every other window's block index in terms of the attention-weights window's: the query and output tiles move with
    it, the key and value blocks follow its batch and head only, the mask's block never moves; and the point's third
    grid coordinate is the query tile. -/
theorem idx_facts : ∀ t : Fin cfg0.N,
    win0_0.index t 0 = win0_5.index t 0 ∧ win0_0.index t 1 = win0_5.index t 1 ∧ win0_0.index t 2 = win0_5.index t 2 ∧ win0_0.index t 3 = 0
    ∧ win0_1.index t 0 = win0_5.index t 0 ∧ win0_1.index t 1 = win0_5.index t 1 ∧ win0_1.index t 2 = 0 ∧ win0_1.index t 3 = 0
    ∧ win0_2.index t 0 = win0_5.index t 0 ∧ win0_2.index t 1 = win0_5.index t 1 ∧ win0_2.index t 2 = 0 ∧ win0_2.index t 3 = 0
    ∧ win0_3.index t 0 = 0 ∧ win0_3.index t 1 = 0 ∧ win0_3.index t 2 = 0 ∧ win0_3.index t 3 = 0
    ∧ win0_4.index t 0 = win0_5.index t 0 ∧ win0_4.index t 1 = win0_5.index t 1 ∧ win0_4.index t 2 = win0_5.index t 2 ∧ win0_4.index t 3 = 0
    ∧ (grid0.coords t 2).val = win0_5.index t 2 :=
  (by decide +kernel : ∀ t : Fin grid0.N, _)

/-- the batch of grid point t -/
def gb (t : Fin cfg0.N) : Fin 2 := ⟨win0_5.index t 0, (idx5 t).2.2.2.2.1⟩
/-- the head of grid point t -/
def gh (t : Fin cfg0.N) : Fin 16 := ⟨win0_5.index t 1, (idx5 t).2.2.2.2.2.1⟩
/-- the query tile of grid point t -/
def gq (t : Fin cfg0.N) : Fin 8 := ⟨win0_5.index t 2, (idx5 t).2.2.2.2.2.2⟩
/-- row r of point t's query tile, as a row of the whole array: 256·qi + r -/
def grow (t : Fin cfg0.N) (r : Fin 256) : Fin 2048 :=
  ⟨256 * (gq t).val + r.val, by have h1 := (gq t).isLt; have h2 := r.isLt; omega⟩

theorem grow_val (t : Fin cfg0.N) (r : Fin 256) : (grow t r).val = 256 * (gq t).val + r.val := rfl

/-! ## The input windows' blocks, read off their arrays

An element of a block sits in the array, on each axis, at the block index times the block's size plus its own
coordinate inside the block. -/

/-- Row `r`, feature `d` of the query tile at point `t` is row 256·qi + r of the query array at the point's batch and head. -/
theorem q_blk (c : Dev nD) (t : Fin cfg0.N) (r : Fin 256) (d : Fin 64) :
    (iblk m c 0 t : Vec F S1x1x256x64 .f32) (ix4 0 0 r d) = V m c main_arg0 (ix4 (gb t) (gh t) (grow t r) d) := by
  obtain ⟨e0, e1, e2, e3, -⟩ := idx_facts t
  unfold iblk
  rw [View.read_apply]
  show V m c main_arg0 _ = V m c main_arg0 _
  congr 1
  funext a
  apply Fin.ext
  match a with
  | ⟨0, _⟩ => show win0_0.index t 0 * 1 + 1 * 0 = win0_5.index t 0; omega
  | ⟨1, _⟩ => show win0_0.index t 1 * 1 + 1 * 0 = win0_5.index t 1; omega
  | ⟨2, _⟩ => show win0_0.index t 2 * 256 + 1 * r.val = 256 * win0_5.index t 2 + r.val; omega
  | ⟨3, _⟩ => show win0_0.index t 3 * 64 + 1 * d.val = d.val; omega

/-- Key position `j`, feature `d` of the key block at point `t` is that entry of the key array at the point's batch and head. -/
theorem k_blk (c : Dev nD) (t : Fin cfg0.N) (j : Fin 2048) (d : Fin 64) :
    (iblk m c 1 t : Vec F S1x1x2048x64 .f32) (ix4 0 0 j d) = V m c main_arg1 (ix4 (gb t) (gh t) j d) := by
  obtain ⟨-, -, -, -, e0, e1, e2, e3, -⟩ := idx_facts t
  unfold iblk
  rw [View.read_apply]
  show V m c main_arg1 _ = V m c main_arg1 _
  congr 1
  funext a
  apply Fin.ext
  match a with
  | ⟨0, _⟩ => show win0_1.index t 0 * 1 + 1 * 0 = win0_5.index t 0; omega
  | ⟨1, _⟩ => show win0_1.index t 1 * 1 + 1 * 0 = win0_5.index t 1; omega
  | ⟨2, _⟩ => show win0_1.index t 2 * 2048 + 1 * j.val = j.val; omega
  | ⟨3, _⟩ => show win0_1.index t 3 * 64 + 1 * d.val = d.val; omega

/-- Key position `j`, feature `d` of the value block at point `t` is that entry of the value array at the point's batch and head. -/
theorem v_blk (c : Dev nD) (t : Fin cfg0.N) (j : Fin 2048) (d : Fin 64) :
    (iblk m c 2 t : Vec F S1x1x2048x64 .f32) (ix4 0 0 j d) = V m c main_arg2 (ix4 (gb t) (gh t) j d) := by
  obtain ⟨-, -, -, -, -, -, -, -, e0, e1, e2, e3, -⟩ := idx_facts t
  unfold iblk
  rw [View.read_apply]
  show V m c main_arg2 _ = V m c main_arg2 _
  congr 1
  funext a
  apply Fin.ext
  match a with
  | ⟨0, _⟩ => show win0_2.index t 0 * 1 + 1 * 0 = win0_5.index t 0; omega
  | ⟨1, _⟩ => show win0_2.index t 1 * 1 + 1 * 0 = win0_5.index t 1; omega
  | ⟨2, _⟩ => show win0_2.index t 2 * 2048 + 1 * j.val = j.val; omega
  | ⟨3, _⟩ => show win0_2.index t 3 * 64 + 1 * d.val = d.val; omega

/-- The mask's block at every point is the whole mask. -/
theorem m_blk (c : Dev nD) (t : Fin cfg0.N) (r' j : Fin 2048) :
    (iblk m c 3 t : Vec F S1x1x2048x2048 .f32) (ix4 0 0 r' j) = V m c main_arg3 (ix4 0 0 r' j) := by
  obtain ⟨-, -, -, -, -, -, -, -, -, -, -, -, e0, e1, e2, e3, -⟩ := idx_facts t
  unfold iblk
  rw [View.read_apply]
  show V m c main_arg3 _ = V m c main_arg3 _
  congr 1
  funext a
  apply Fin.ext
  match a with
  | ⟨0, _⟩ => show win0_3.index t 0 * 1 + 1 * 0 = 0; omega
  | ⟨1, _⟩ => show win0_3.index t 1 * 1 + 1 * 0 = 0; omega
  | ⟨2, _⟩ => show win0_3.index t 2 * 2048 + 1 * r'.val = r'.val; omega
  | ⟨3, _⟩ => show win0_3.index t 3 * 2048 + 1 * j.val = j.val; omega

/-- The body loads the 256 mask rows of its query tile: rows 256·qi onward, every column. -/
theorem off_mask (t : Fin cfg0.N) : k0_off1 (grid0.coords t) = ![0, 0, 256 * (gq t).val, 0] := by
  obtain ⟨-, -, -, -, -, -, -, -, -, -, -, -, -, -, -, -, -, -, -, -, e⟩ := idx_facts t
  rw [k0_off1_eq]
  show (![0, 0, 256 * (grid0.coords t 2).val, 0] : Fin 4 → Nat) = ![0, 0, 256 * win0_5.index t 2, 0]
  rw [e]

/-! ## The output windows' blocks -/

/-- reading any whole-array function through the attention-weights window's block at point t -/
theorem read5 (t : Fin cfg0.N) (G : S2x16x2048x2048.Idx → Elt F .f32) (r : Fin 256) (j : Fin 2048) :
    (((cfg0.win 5).blk t).view.read (Elt F) G : Vec F S1x1x256x2048 .f32) (ix4 0 0 r j) = G (ix4 (gb t) (gh t) (grow t r) j) := by
  obtain ⟨-, -, -, e3, -⟩ := idx5 t
  rw [View.read_apply]
  show G _ = G _
  congr 1
  funext a
  apply Fin.ext
  match a with
  | ⟨0, _⟩ => show win0_5.index t 0 * 1 + 1 * 0 = win0_5.index t 0; omega
  | ⟨1, _⟩ => show win0_5.index t 1 * 1 + 1 * 0 = win0_5.index t 1; omega
  | ⟨2, _⟩ => show win0_5.index t 2 * 256 + 1 * r.val = 256 * win0_5.index t 2 + r.val; omega
  | ⟨3, _⟩ => show win0_5.index t 3 * 2048 + 1 * j.val = j.val; omega

/-- reading any whole-array function through the output window's block at point t -/
theorem read4 (t : Fin cfg0.N) (G : S2x16x2048x64.Idx → Elt F .f32) (r : Fin 256) (d : Fin 64) :
    (((cfg0.win 4).blk t).view.read (Elt F) G : Vec F S1x1x256x64 .f32) (ix4 0 0 r d) = G (ix4 (gb t) (gh t) (grow t r) d) := by
  obtain ⟨-, -, -, -, -, -, -, -, -, -, -, -, -, -, -, -, e0, e1, e2, e3, -⟩ := idx_facts t
  rw [View.read_apply]
  show G _ = G _
  congr 1
  funext a
  apply Fin.ext
  match a with
  | ⟨0, _⟩ => show win0_4.index t 0 * 1 + 1 * 0 = win0_5.index t 0; omega
  | ⟨1, _⟩ => show win0_4.index t 1 * 1 + 1 * 0 = win0_5.index t 1; omega
  | ⟨2, _⟩ => show win0_4.index t 2 * 256 + 1 * r.val = 256 * win0_5.index t 2 + r.val; omega
  | ⟨3, _⟩ => show win0_4.index t 3 * 64 + 1 * d.val = d.val; omega

/-! ## The cover: the output blocks tile their arrays -/

/-- An index of the attention-weights array is in point `t`'s block iff each coordinate is in the block's range on its axis. -/
theorem mem_blk5 (t : Fin cfg0.N) (i : S2x16x2048x2048.Idx) :
    i ∈ ((cfg0.win 5).blk t).view.set ↔ ∀ a : Fin 4, win0_5.index t a * S1x1x256x2048.size a ≤ (i a).val ∧ (i a).val < win0_5.index t a * S1x1x256x2048.size a + S1x1x256x2048.size a := by
  show i ∈ ((View.whole main_v0_1).slice (win0_5.rect t)).set ↔ _
  rw [View.set_slice_whole, Rect.mem_set_unit]
  exact Iff.rfl

/-- An index of the output array is in point `t`'s block iff each coordinate is in the block's range on its axis. -/
theorem mem_blk4 (t : Fin cfg0.N) (i : S2x16x2048x64.Idx) :
    i ∈ ((cfg0.win 4).blk t).view.set ↔ ∀ a : Fin 4, win0_4.index t a * S1x1x256x64.size a ≤ (i a).val ∧ (i a).val < win0_4.index t a * S1x1x256x64.size a + S1x1x256x64.size a := by
  show i ∈ ((View.whole main_v0_0).slice (win0_4.rect t)).set ↔ _
  rw [View.set_slice_whole, Rect.mem_set_unit]
  exact Iff.rfl

/-- every index of the attention-weights array lies in some point's block: the point (i0, i1, i2 / 256) -/
theorem cover5 (i : S2x16x2048x2048.Idx) : ∃ t : Fin cfg0.N, (cfg0.win 5).flush t = true ∧ i ∈ ((cfg0.win 5).blk t).view.set := by
  have hN : cfg0.N = 256 := N_0
  have h0 : (i 0).val < 2 := (i 0).isLt
  have h1 : (i 1).val < 16 := (i 1).isLt
  have h2 : (i 2).val < 2048 := (i 2).isLt
  have h3 : (i 3).val < 2048 := (i 3).isLt
  obtain ⟨t, ht⟩ : ∃ t : Fin cfg0.N, t.val = (i 0).val * 128 + (i 1).val * 8 + (i 2).val / 256 :=
    ⟨⟨(i 0).val * 128 + (i 1).val * 8 + (i 2).val / 256, by omega⟩, rfl⟩
  obtain ⟨e0, e1, e2, e3, -⟩ := idx5 t
  refine ⟨t, flush0_5 t, ?_⟩
  rw [mem_blk5]
  intro a
  match a with
  | ⟨0, _⟩ => show win0_5.index t 0 * 1 ≤ (i 0).val ∧ (i 0).val < win0_5.index t 0 * 1 + 1; omega
  | ⟨1, _⟩ => show win0_5.index t 1 * 1 ≤ (i 1).val ∧ (i 1).val < win0_5.index t 1 * 1 + 1; omega
  | ⟨2, _⟩ => show win0_5.index t 2 * 256 ≤ (i 2).val ∧ (i 2).val < win0_5.index t 2 * 256 + 256; omega
  | ⟨3, _⟩ => show win0_5.index t 3 * 2048 ≤ (i 3).val ∧ (i 3).val < win0_5.index t 3 * 2048 + 2048; omega

/-- every index of the output array lies in some point's block: the point (i0, i1, i2 / 256) -/
theorem cover4 (i : S2x16x2048x64.Idx) : ∃ t : Fin cfg0.N, (cfg0.win 4).flush t = true ∧ i ∈ ((cfg0.win 4).blk t).view.set := by
  have hN : cfg0.N = 256 := N_0
  have h0 : (i 0).val < 2 := (i 0).isLt
  have h1 : (i 1).val < 16 := (i 1).isLt
  have h2 : (i 2).val < 2048 := (i 2).isLt
  have h3 : (i 3).val < 64 := (i 3).isLt
  obtain ⟨t, ht⟩ : ∃ t : Fin cfg0.N, t.val = (i 0).val * 128 + (i 1).val * 8 + (i 2).val / 256 :=
    ⟨⟨(i 0).val * 128 + (i 1).val * 8 + (i 2).val / 256, by omega⟩, rfl⟩
  obtain ⟨e0, e1, e2, -⟩ := idx5 t
  obtain ⟨-, -, -, -, -, -, -, -, -, -, -, -, -, -, -, -, f0, f1, f2, f3, -⟩ := idx_facts t
  refine ⟨t, flush0_4 t, ?_⟩
  rw [mem_blk4]
  intro a
  match a with
  | ⟨0, _⟩ => show win0_4.index t 0 * 1 ≤ (i 0).val ∧ (i 0).val < win0_4.index t 0 * 1 + 1; omega
  | ⟨1, _⟩ => show win0_4.index t 1 * 1 ≤ (i 1).val ∧ (i 1).val < win0_4.index t 1 * 1 + 1; omega
  | ⟨2, _⟩ => show win0_4.index t 2 * 256 ≤ (i 2).val ∧ (i 2).val < win0_4.index t 2 * 256 + 256; omega
  | ⟨3, _⟩ => show win0_4.index t 3 * 64 ≤ (i 3).val ∧ (i 3).val < win0_4.index t 3 * 64 + 64; omega

/-- every index of a [1,1,a,b] block is ix4 0 0 r j -/
theorem eq_ix4_unit {a b : Nat} (y : (⟨4, ![1, 1, a, b]⟩ : Shape).Idx) : y = ix4 0 0 (y 2) (y 3) := by
  funext e
  match e with
  | ⟨0, _⟩ => exact Fin.ext (show (y 0).val = 0 from by have h : (y 0).val < 1 := (y 0).isLt; omega)
  | ⟨1, _⟩ => exact Fin.ext (show (y 1).val = 0 from by have h : (y 1).val < 1 := (y 1).isLt; omega)
  | ⟨2, _⟩ => rfl
  | ⟨3, _⟩ => rfl

/-! ## A block given row by row is the read of the whole-array function through the block -/

/-- Contents of an attention-weights block that agree, entry by entry, with a whole-array function at the point's batch,
    head and rows are what the point's write-back writes of that function's block. -/
theorem cut5_of_rows (t : Fin cfg0.N) (G : S2x16x2048x2048.Idx → Elt F .f32) (X : Vec F S1x1x256x2048 .f32)
    (h : ∀ (r : Fin 256) (j : Fin 2048), X (ix4 0 0 r j) = G (ix4 (gb t) (gh t) (grow t r) j)) :
    (cfg0.win 5).cut (grid0.coords t) X = ((cfg0.win 5).blk t).view.read (Elt F) G := by
  funext (y : S1x1x256x2048.Idx)
  obtain ⟨r, j, rfl⟩ : ∃ (r : Fin 256) (j : Fin 2048), y = ix4 0 0 r j := ⟨y 2, y 3, eq_ix4_unit y⟩
  exact (h r j).trans (read5 t G r j).symm

/-- The same for the output window's block. -/
theorem cut4_of_rows (t : Fin cfg0.N) (G : S2x16x2048x64.Idx → Elt F .f32) (X : Vec F S1x1x256x64 .f32)
    (h : ∀ (r : Fin 256) (d : Fin 64), X (ix4 0 0 r d) = G (ix4 (gb t) (gh t) (grow t r) d)) :
    (cfg0.win 4).cut (grid0.coords t) X = ((cfg0.win 4).blk t).view.read (Elt F) G := by
  funext (y : S1x1x256x64.Idx)
  obtain ⟨r, d, rfl⟩ : ∃ (r : Fin 256) (d : Fin 64), y = ix4 0 0 r d := ⟨y 2, y 3, eq_ix4_unit y⟩
  exact (h r d).trans (read4 t G r d).symm

end Cert.KernelIdeal.Blocks

end
-- ==== Proof.AttnKernel.lean ====
/-
  The kernel's two result arrays are the specification's output and attention weights of its argument arrays.

  The kernel runs one body per grid point (batch b, head h, query tile qi); the point's blocks of the two result
  arrays are rows 256·qi … 256·qi + 255 of the batch's and head's slices, and the 256 points' blocks tile each array.
  At a point the body reads the tile's 256 query rows, all 2048 key rows and value rows of (b, h), and the tile's 256
  rows of the mask; what it stores is its arithmetic applied to those blocks: for row r of the tile and key position j,
  the softmax over j of (∑ d, (q[r,d] · 1/8) · k[j,d]) + mask[r,j] · (−10⁹), and the contraction of those weights with the
  value rows. Scaling the query by 1/8 before the contraction is dividing the contraction by √64, so the stored blocks
  are the point's blocks of the specification's arrays; the blocks cover the arrays, so the arrays end at the
  specification's.
-/
import proofs.«138838_j32392643346715_2_alg».proof.Proof.Spec
import proofs.«138838_j32392643346715_2_alg».proof.Proof.Pieces
import proofs.«138838_j32392643346715_2_alg».proof.Proof.Payload
import proofs.«138838_j32392643346715_2_alg».proof.Proof.Blocks
import proofs.«138838_j32392643346715_2_alg».proof.Proof.Gen.KernelIdeal.Value
import Idealize.ShloMosaic.Lib.Pipeline.Value
import Idealize.ShloMosaic.Lib.ValueIdx

noncomputable section
open scoped BigOperators

namespace Cert.Attn.Kernel

open Cert.KernelIdeal Cert.KernelIdeal.Gen Cert.KernelIdeal.Blocks Cert.KernelIdeal.Pieces Cert.Attn Cert.Attn.Pay
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The mask rows the body reads at point `t` are rows `256 · qi … 256 · qi + 255` of the mask array. -/
theorem maskRows_apply (c : Dev nD) (t : Fin cfg0.N) (r : Fin 256) (j : Fin 2048) :
    maskRows (grid0.coords t) (iblk m c 3 t : Vec Ideal S1x1x2048x2048 .f32) (ix4 0 0 r j) = V m c main_arg3 (ix4 0 0 (grow t r) j) := by
  refine Eq.trans ?_ (m_blk m c t (grow t r) j)
  unfold maskRows
  show (iblk m c 3 t : Vec Ideal S1x1x2048x2048 .f32) _ = (iblk m c 3 t : Vec Ideal S1x1x2048x2048 .f32) _
  refine congrArg _ (funext fun a => Fin.ext ?_)
  have ho := off_mask t
  have hg := grow_val t r
  match a with
  | ⟨0, _⟩ => show k0_off1 (grid0.coords t) 0 + 1 * 0 = 0; rw [ho]; rfl
  | ⟨1, _⟩ => show k0_off1 (grid0.coords t) 1 + 1 * 0 = 0; rw [ho]; rfl
  | ⟨2, _⟩ => show k0_off1 (grid0.coords t) 2 + 1 * r.val = (grow t r).val; rw [ho, hg]; show 256 * (gq t).val + 1 * r.val = _; omega
  | ⟨3, _⟩ => show k0_off1 (grid0.coords t) 3 + 1 * j.val = j.val; rw [ho]; show 0 + 1 * j.val = j.val; omega

/-- The attention weights of the argument arrays as core `c` finds them. -/
abbrev attnOf (c : Dev nD) : SA.Idx → EReal := attn (V m c main_arg0) (V m c main_arg1) (V m c main_arg3)
/-- The output of the argument arrays as core `c` finds them. -/
abbrev outOf (c : Dev nD) : SQ.Idx → EReal := out (V m c main_arg0) (V m c main_arg1) (V m c main_arg2) (V m c main_arg3)

/-- The weights the body computes at point `t`, row `r`, position `j`, are the specification's at row `256 · qi + r`:
    the query block's row `r` is row `256 · qi + r` of the batch's and head's queries, the key block is the
    batch's and head's keys, the mask rows are the mask's, and scaling the query by 1/8 is dividing by √64. -/
theorem weights_at (c : Dev nD) (t : Fin cfg0.N) (r : Fin 256) (j : Fin 2048) :
    k0_pay3 (F := Ideal) (iblk m c 0 t) (iblk m c 1 t) (maskRows (grid0.coords t) (iblk m c 3 t)) (ix2 r j)
      = attnOf m c (ix4 (gb t) (gh t) (grow t r) j) := by
  rw [pay3_apply]
  show _ = softmax (logits (V m c main_arg0) (V m c main_arg1) (V m c main_arg3) (gb t) (gh t) (grow t r)) j
  refine congrArg (fun l => softmax l j) (funext fun j' => ?_)
  rw [logitScaled_eq_logit]
  unfold logits
  rw [maskRows_apply]
  refine congrArg₂ (fun q k => logit q k _) (funext fun d => q_blk m c t r d) (funext fun d => k_blk m c t j' d)

/-- The weights block the body leaves at point `t` is the point's block of the specification's weights. -/
theorem block5_pt (c : Dev nD) (t : Fin cfg0.N) (y : S1x1x256x2048.Idx) :
    (k0_pay4 (F := Ideal) (iblk m c 0 t) (iblk m c 1 t) (maskRows (grid0.coords t) (iblk m c 3 t)) : Vec Ideal S1x1x256x2048 .f32) y
      = (((cfg0.win 5).blk t).view.read (Elt Ideal) (attnOf m c) : Vec Ideal S1x1x256x2048 .f32) y := by
  obtain ⟨r, j, rfl⟩ : ∃ (r : Fin 256) (j : Fin 2048), y = ix4 0 0 r j := ⟨y 2, y 3, eq_ix4_unit y⟩
  rw [read5, pay4_apply, weights_at]

/-- The output block the body leaves at point `t` is the point's block of the specification's output: row `r` of the
    block contracts the row's weights with the batch's and head's values. -/
theorem block4_pt (c : Dev nD) (t : Fin cfg0.N) (y : S1x1x256x64.Idx) :
    (k0_pay1 (F := Ideal) (k0_pay2 (iblk m c 2 t)) (k0_pay3 (iblk m c 0 t) (iblk m c 1 t) (maskRows (grid0.coords t) (iblk m c 3 t))) : Vec Ideal S1x1x256x64 .f32) y
      = (((cfg0.win 4).blk t).view.read (Elt Ideal) (outOf m c) : Vec Ideal S1x1x256x64 .f32) y := by
  obtain ⟨r, d, rfl⟩ : ∃ (r : Fin 256) (d : Fin 64), y = ix4 0 0 r d := ⟨y 2, y 3, eq_ix4_unit y⟩
  rw [read4, pay1_apply]
  show _ = ∑ j : Fin 2048, attnOf m c (ix4 (gb t) (gh t) (grow t r) j) * V m c main_arg2 (ix4 (gb t) (gh t) j d)
  refine Finset.sum_congr rfl fun j _ => ?_
  rw [weights_at, pay2_apply, v_blk]

/-- What point `t` writes back to the weights array. -/
theorem flushed5_eq (c : Dev nD) (t : Fin cfg0.N) :
    (dats m 0 c).flushed 5 t = ((cfg0.win 5).blk t).view.read (Elt Ideal) (attnOf m c) := by
  rw [Cert.KernelIdeal.Value.flushed5_A m c t, out5_eq]
  exact funext (block5_pt m c t)

/-- What point `t` writes back to the output array. -/
theorem flushed4_eq (c : Dev nD) (t : Fin cfg0.N) :
    (dats m 0 c).flushed 4 t = ((cfg0.win 4).blk t).view.read (Elt Ideal) (outOf m c) := by
  rw [Cert.KernelIdeal.Value.flushed4_A m c t, out4_eq]
  exact funext (block4_pt m c t)

/-- The 256 blocks tile the weights array, so it ends holding the specification's weights. -/
theorem final5 (c : Dev nD) : (dats m 0 c).arrAt 5 cfg0.N = attnOf m c :=
  (dats m 0 c).arrAt_eq_of_cover 5 (attnOf m c) (fun t _ => flushed5_eq m c t) cover5

/-- Likewise the output array. -/
theorem final4 (c : Dev nD) : (dats m 0 c).arrAt 4 cfg0.N = outOf m c :=
  (dats m 0 c).arrAt_eq_of_cover 4 (outOf m c) (fun t _ => flushed4_eq m c t) cover4

/-- The kernel's run: every execution ends with the output array at the specification's output of the arguments, the weights
    array at the specification's weights, the arguments unchanged. -/
theorem run : θ_run defs (onTc (τ := τ) (main (F := Ideal))) ⟨m, fun _ => 0, ρ⟩ fun r => ∀ c : Dev nD,
      r.2.mem ((c : Thread nD τ).loc main_v0_0) = out (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = attn (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.Attn.Kernel

end
-- ==== Proof.lean ====
/-
  Scaled dot-product attention with an additive mask: a tiled kernel against the plain formula.

  Both programs take queries, keys and values Q, K, V of shape [2, 16, 2048, 64] and a mask M of shape
  [1, 1, 2048, 2048], and return the output O = A · V and the attention weights
      A[b,h,r,·] = softmax over j of ( (∑ d, Q[b,h,r,d] · K[b,h,j,d]) / √64 + M[0,0,r,j] · (−10⁹) ).
  The reference computes this over whole arrays (Proof/RefAttn.lean reads its operations one at a time). The kernel
  computes one tile of 256 query rows per grid point, and scales the queries by 1/8 before the contraction instead
  of dividing the contraction by √64 (Proof/Pieces.lean: what one run of the body stores; Proof/Payload.lean: the
  body's arithmetic at an index; Proof/Blocks.lean: the tiles; Proof/AttnKernel.lean: the two result arrays). Over the
  extended reals the two scalings are the same function of the inputs — a non-negative finite factor distributes
  over every sum of extended reals (Proof/Spec.lean) — and a change of float format is the identity, so both
  programs end with the same arrays for all inputs; the precondition is not used. The idealization rewrote no
  operation of the kernel, and each program's run leaves its arguments unchanged.
-/
import proofs.«138838_j32392643346715_2_alg».proof.Defs
import proofs.«138838_j32392643346715_2_alg».proof.Proof.Gen.Kernel
import proofs.«138838_j32392643346715_2_alg».proof.Proof.Gen.Kernel.Frame
import proofs.«138838_j32392643346715_2_alg».proof.Proof.Gen.KernelIdeal
import proofs.«138838_j32392643346715_2_alg».proof.Proof.Gen.KernelIdeal.Frame
import proofs.«138838_j32392643346715_2_alg».proof.Proof.Gen.KernelIdeal.Value
import proofs.«138838_j32392643346715_2_alg».proof.Proof.Gen.ReferenceIdeal
import proofs.«138838_j32392643346715_2_alg».proof.Proof.Gen.ReferenceIdeal.Run
import proofs.«138838_j32392643346715_2_alg».proof.Proof.Gen.ReferenceIdeal.Read
import proofs.«138838_j32392643346715_2_alg».proof.Proof.Gen.Pre_finite_inputs
import proofs.«138838_j32392643346715_2_alg».proof.Proof.Spec
import proofs.«138838_j32392643346715_2_alg».proof.Proof.RefAttn
import proofs.«138838_j32392643346715_2_alg».proof.Proof.AttnKernel
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel. -/
theorem preserves : Cert.preserves_Kernel_KernelIdeal := trivial

/-- Over the extended reals both programs end with the specification's output and weights of their arguments, and
    the arguments agree. -/
theorem algebraic : Cert.algebraic_KernelIdeal_ReferenceIdeal := by
  intro m ρ m' ρ' _ hagree
  refine ⟨_, _, Cert.Attn.Kernel.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v19_eq, Cert.Attn.Ref.ref_out,
      (hagree c).1, (hagree c).2.1, (hagree c).2.2.1, (hagree c).2.2.2]
  · rw [(h c).2.1, Cert.ReferenceIdeal.Read.val_main_v18_eq, Cert.Attn.Ref.ref_attn,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
